-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x4096x128 .f32) (main_arg1 : IVec S8x4096x4096 32) (main_arg2 : FVec F S128x128 .f32) (main_arg3 : FVec F S128x128 .f32) (main_arg4 : FVec F S128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S1x128 : Shape := ⟨2, ![1, 128]⟩
abbrev S1x256x4096 : Shape := ⟨3, ![1, 256, 4096]⟩
abbrev S1x4096x128 : Shape := ⟨3, ![1, 4096, 128]⟩
abbrev S4096x128 : Shape := ⟨2, ![4096, 128]⟩
abbrev S1x4096 : Shape := ⟨2, ![1, 4096]⟩
abbrev S256x4096 : Shape := ⟨2, ![256, 4096]⟩
abbrev S1x256x128 : Shape := ⟨3, ![1, 256, 128]⟩
abbrev S256x128 : Shape := ⟨2, ![256, 128]⟩
abbrev S4096 : Shape := ⟨1, ![4096]⟩
abbrev S4096x1 : Shape := ⟨2, ![4096, 1]⟩

abbrev nBuf : Space → Nat
  | .hbm => 9
  | .vmem => 11
  | .smem => 0
  | _ => 0

abbrev bufTy : (tb : Table) → Fin (tcTables nBuf tb) → BufTy
  | .hbm, ⟨0, _⟩ => ⟨S8x4096x128, .f32⟩
  | .hbm, ⟨1, _⟩ => ⟨S8x4096x4096, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S128x128, .bf16⟩
  | .hbm, ⟨7, _⟩ => ⟨S128x128, .bf16⟩
  | .hbm, ⟨8, _⟩ => ⟨S8x4096x128, .f32⟩
  | .local _ .vmem, ⟨0, _⟩ => ⟨S1x256x4096, .i32⟩
  | .local _ .vmem, ⟨1, _⟩ => ⟨S1x256x4096, .i32⟩
  | .local _ .vmem, ⟨2, _⟩ => ⟨S1x4096x128, .f32⟩
  | .local _ .vmem, ⟨3, _⟩ => ⟨S1x4096x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S1x4096x128, .f32⟩
  | .local _ .vmem, ⟨8, _⟩ => ⟨S1x4096x128, .f32⟩
  | .local _ .vmem, ⟨9, _⟩ => ⟨S4096x128, .f32⟩
  | .local _ .vmem, ⟨10, _⟩ => ⟨S1x4096, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v10 : BitVec 32 := Scalar.muli arg1 c256_i32
  v10
def k0_off1 (i : grid0.Coords) : Fin 3 → Nat :=
  let c0_4 : Index := 0#32
  let arg1 : BitVec 32 := BitVec.ofNat 32 (i 1).val
  let c256_i32 : BitVec 32 := 256#32
  let v10 : BitVec 32 := Scalar.muli arg1 c256_i32
  let v11 : BitVec 32 := v10
  let v12 : Index := Scalar.indexCast v11
  let c0_5 : Index := 0#32
  ![0, v12.toNat, 0]
def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_15 : BitVec 32 := 0#32
  let v33 : BitVec 1 := Scalar.cmpi .ne v32 c0_i32_15
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S128_S1x128 : S128.ShapeCasts S1x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  natLt_1_32 : 1 < 32
  h_S1x256x128 : 0 < S1x256x128.numel
  shapeCasts_S1x256x128_S256x128 : S1x256x128.ShapeCasts S256x128
  reduces_S256x4096_S4096 : S256x4096.Reduces [0] S4096
  shapeCasts_S4096_S1x4096 : S4096.ShapeCasts S1x4096
  transposes_S1x4096_p1_0_S4096x1 : S1x4096.Transposes [1, 0] S4096x1
  broadcasts_S4096x1_S4096x128 : S4096x1.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S1x4096x128 : S4096x128.ShapeCasts S1x4096x128
  dot_S256x4096_S256x128_S4096x128_0_0_1_1_n_n_wf : DotDims.WF S256x4096 S256x128 S4096x128 [0] [0] [1] [1] [] []
  dot_S4096x128_S128x128_S4096x128_1_0_0_1_n_n_wf : DotDims.WF S4096x128 S128x128 S4096x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x128.size a ≤ S1x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x4096x4096.size a
  hwx0_0 : ∀ i : grid0.Coords, EltTy.bits .i32 = 32 ∨ (Rect.block (s := S8x4096x4096) S1x256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S8x4096x128.size a
  hwx0_1 : ∀ i : grid0.Coords, EltTy.bits .f32 = 32 ∨ (Rect.block (s := S8x4096x128) S1x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x128.size a ≤ S8x4096x128.size a
  hwx0_5 : ∀ i : grid0.Coords, EltTy.bits .f32 = 32 ∨ (Rect.block (s := S8x4096x128) S1x4096x128.size (cc0_transform_5 i) (hinb0_5 i)).WholeWords (EltTy.packing .f32)

variable [Facts₀]

def dot_S256x4096_S256x128_S4096x128_0_0_1_1_n_n : DotDims S256x4096 S256x128 S4096x128 where
  lhsContracting := [0]
  rhsContracting := [0]
  lhsNonContracting := [1]
  rhsNonContracting := [1]
  lhsBatch := []
  rhsBatch := []
  wf := dot_S256x4096_S256x128_S4096x128_0_0_1_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg1) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x4096, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S8x4096x4096, .i32⟩
  | .hbm, ⟨7, _⟩ => ⟨S8x4096x4096, .i1⟩
  | .hbm, ⟨8, _⟩ => ⟨S8x4096x4096, .f32⟩
  | .hbm, ⟨9, _⟩ => ⟨S_, .f32⟩
  | .hbm, ⟨10, _⟩ => ⟨S8x4096, .f32⟩
  | .hbm, ⟨11, _⟩ => ⟨S8x4096x128, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S8x4096x1, .f32⟩
  | .hbm, ⟨16, _⟩ => ⟨S8x4096x128, .f32⟩
  | .hbm, ⟨17, _⟩ => ⟨S8x4096x128, .f32⟩
  | .hbm, ⟨18, _⟩ => ⟨S8x4096x128, .f32⟩
  | .hbm, ⟨19, _⟩ => ⟨S8x4096x128, .f32⟩
  | .hbm, ⟨20, _⟩ => ⟨S8x4096x128, .f32⟩
  | .hbm, ⟨21, _⟩ => ⟨S1x1x128, .f32⟩
  | .hbm, ⟨22, _⟩ => ⟨S8x4096x128, .f32⟩
  | .hbm, ⟨23, _⟩ => ⟨S8x4096x128, .f32⟩
  | .hbm, ⟨24, _⟩ => ⟨S_, .f32⟩
  | .hbm, ⟨25, _⟩ => ⟨S8x4096x128, .f32⟩
  | .hbm, ⟨26, _⟩ => ⟨S8x4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d1 : S8x4096x4096.ReducesTo [1] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x128_0_1_2 : S8x4096x1.BroadcastsInDim S8x4096x128 (![0, 1, 2] : Fin 3 → Fin S8x4096x128.rank)
  bcast_S128_S1x1x128_2 : S128.BroadcastsInDim S1x1x128 (![2] : Fin 1 → Fin S1x1x128.rank)
  bcast_S1x1x128_S8x4096x128_0_1_2 : S1x1x128.BroadcastsInDim S8x4096x128 (![0, 1, 2] : Fin 3 → Fin S8x4096x128.rank)
  bcast_S_S8x4096x128 : S_.BroadcastsInDim S8x4096x128 (![] : Fin 0 → Fin S8x4096x128.rank)
  dot_S8x4096x4096_S8x4096x128_S8x4096x128_1_1_2_2_0_0_wf : DotDims.WF S8x4096x4096 S8x4096x128 S8x4096x128 [1] [1] [2] [2] [0] [0]
  dot_S8x4096x128_S128x128_S8x4096x128_2_0_01_1_n_n_wf : DotDims.WF S8x4096x128 S128x128 S8x4096x128 [2] [0] [0, 1] [1] [] []

variable [Facts₀]

def dot_S8x4096x4096_S8x4096x128_S8x4096x128_1_1_2_2_0_0 : DotDims S8x4096x4096 S8x4096x128 S8x4096x128 where
  lhsContracting := [1]
  rhsContracting := [1]
  lhsNonContracting := [2]
  rhsNonContracting := [2]
  lhsBatch := [0]
  rhsBatch := [0]
  wf := dot_S8x4096x4096_S8x4096x128_S8x4096x128_1_1_2_2_0_0_wf
def dot_S8x4096x128_S128x128_S8x4096x128_2_0_01_1_n_n : DotDims S8x4096x128 S128x128 S8x4096x128 where
  lhsContracting := [2]
  rhsContracting := [0]
  lhsNonContracting := [0, 1]
  rhsNonContracting := [1]
  lhsBatch := []
  rhsBatch := []
  wf := dot_S8x4096x128_S128x128_S8x4096x128_2_0_01_1_n_n_wf

class Facts : Prop extends Facts₀ where

variable [Facts]
-- ==== Proof.Legs.lean ====
/-
  The generated legs this certificate's bridge is written over: the idealized kernel's value leg (what each grid
  point writes back, and the run with the output array named) and the reference's run with its read-at-an-index lemmas.
-/
import proofs.«132118_j2903397893033_2_alg».proof.Proof.Gen.KernelIdeal.Value
import proofs.«132118_j2903397893033_2_alg».proof.Proof.Gen.ReferenceIdeal.Run
import proofs.«132118_j2903397893033_2_alg».proof.Proof.Gen.ReferenceIdeal.Read
-- ==== Proof.Sums.lean ====
/-
  A sum over 4096 senders cut into 16 tiles of 256 rows.

  The kernel visits the senders of one batch tile by tile and keeps a running total; the reference sums
  all 4096 at once. Row `r` of tile `k` is sender `256 k + r`, and `(k, r) ↦ 256 k + r` is a bijection of
  `Fin 16 × Fin 256` with `Fin 4096`, so the whole sum is the sum of the tile sums (`sum_tiles`). The
  running total after tile `i` is the sum of the tile sums up to `i` (`upTo`): it starts at tile 0's sum,
  grows by one tile's sum per step, and after tile 15 it is the whole sum (`upTo_last`). Everything
  holds in any commutative additive monoid: only associativity and commutativity of `+` are used, so
  on the extended reals no finiteness is needed.
-/
import Mathlib.Algebra.BigOperators.Fin
import Mathlib.Data.Fintype.BigOperators

namespace Cert.Mpnn

open scoped BigOperators

/-- Row `r` of tile `k` is sender `256 k + r`. -/
def row (k : Fin 16) (r : Fin 256) : Fin 4096 :=
  ⟨256 * k.val + r.val, by have := k.isLt; have := r.isLt; omega⟩

@[simp] theorem row_val (k : Fin 16) (r : Fin 256) : (row k r).val = 256 * k.val + r.val := rfl

/-- Tiles and rows are the senders: `(k, r) ↦ 256 k + r`, with inverse `i ↦ (i / 256, i % 256)`. -/
def tileEquiv : Fin 16 × Fin 256 ≃ Fin 4096 where
  toFun p := row p.1 p.2
  invFun i := (⟨i.val / 256, by have := i.isLt; omega⟩, ⟨i.val % 256, by omega⟩)
  left_inv p := by
    obtain ⟨k, r⟩ := p
    have hk := k.isLt
    have hr := r.isLt
    refine Prod.ext (Fin.ext ?_) (Fin.ext ?_)
    · show (256 * k.val + r.val) / 256 = k.val
      omega
    · show (256 * k.val + r.val) % 256 = r.val
      omega
  right_inv i := by
    refine Fin.ext ?_
    show 256 * (i.val / 256) + i.val % 256 = i.val
    omega

variable {M : Type*} [AddCommMonoid M]

/-- The sum over all senders is the sum over the tiles of each tile's sum over its rows. -/
theorem sum_tiles (g : Fin 4096 → M) : ∑ i : Fin 4096, g i = ∑ k : Fin 16, ∑ r : Fin 256, g (row k r) := by
  rw [← Equiv.sum_comp tileEquiv g, Fintype.sum_prod_type]
  rfl

/-- Tile `k`'s sum, for a natural tile number (zero past the last tile, which is never reached). -/
def tileSum (g : Fin 4096 → M) (k : ℕ) : M :=
  if h : k < 16 then ∑ r : Fin 256, g (row ⟨k, h⟩ r) else 0

theorem tileSum_of_lt (g : Fin 4096 → M) (k : ℕ) (h : k < 16) :
    tileSum g k = ∑ r : Fin 256, g (row ⟨k, h⟩ r) := dif_pos h

/-- The running total after tile `i`: the tile sums of tiles `0 … i`. -/
def upTo (g : Fin 4096 → M) (i : ℕ) : M := ∑ k ∈ Finset.range (i + 1), tileSum g k

/-- After the first tile the running total is that tile's sum. -/
theorem upTo_zero (g : Fin 4096 → M) : upTo g 0 = tileSum g 0 := Finset.sum_range_one _

/-- Each further tile adds its sum. -/
theorem upTo_succ (g : Fin 4096 → M) (i : ℕ) : upTo g (i + 1) = upTo g i + tileSum g (i + 1) :=
  Finset.sum_range_succ _ _

/-- After the last tile the running total is the sum over all senders. -/
theorem upTo_last (g : Fin 4096 → M) : upTo g 15 = ∑ i : Fin 4096, g i := by
  rw [sum_tiles]
  unfold upTo
  rw [Finset.sum_range]
  exact Finset.sum_congr rfl fun k _ => tileSum_of_lt g k.val k.isLt

end Cert.Mpnn
-- ==== Proof.Spec.lean ====
/-
  The message-passing layer as ONE function of its five argument arrays, over the extended reals.

  For a batch `b`, a receiver `j` and an output feature `u`:

    edge(b, i, j)  = 1 if the adjacency word at (b, i, j) is not zero, else 0      (sender i → receiver j)
    deg(b, j)      = ∑ᵢ edge(b, i, j)                                              (the in-degree)
    msum(b, j, f)  = ∑ᵢ edge(b, i, j) · x(b, i, f)                                  (sum of sender features)
    mean(b, j, f)  = msum(b, j, f) / max(deg(b, j), 1)
    out(b, j, u)   = max((∑_f x(b, j, f) · W_upd(f, u) + ∑_f mean(b, j, f) · W_msg(f, u)) + bias(u), 0)

  the sums over all 4096 senders `i` and all 128 features `f`. The literals `1.0` and `0.0` are kept as the
  words both programs print, so that neither side ever evaluates them. Both programs compute this function:
  the reference in one pass, the kernel with the sums over `i` accumulated over 16 tiles of 256 senders.
-/
import Idealize.ShloMosaic.PureOps.Ideal
import Idealize.ShloMosaic.Lib.ValueIdx
import proofs.«132118_j2903397893033_2_alg».proof.Proof.Sums

noncomputable section

namespace Cert.Mpnn

open scoped BigOperators
open Idealize.ShloMosaic Idealize.ShloMosaic.ValueIdx

/-- The shapes of the arguments: features `x`, adjacency words, a weight matrix, the bias. -/
abbrev SX : Shape := ⟨3, ![8, 4096, 128]⟩
abbrev SA : Shape := ⟨3, ![8, 4096, 4096]⟩
abbrev SW : Shape := ⟨2, ![128, 128]⟩
abbrev SB : Shape := ⟨1, ![128]⟩

/-- The edge gate of an adjacency word: the one-bit answer to "is it not zero", read as the number 0 or 1. -/
def edge (w : BitVec 32) : EReal := FloatOps.uitofp (F := Ideal) .f32 (IntOp.cmpi .ne w 0#32)

/-- The same bit widened to 32 bits and read as a SIGNED integer is the same number (0 or 1: the widening
    puts zeros above the bit, so the sign bit is clear). -/
theorem edge_of_widened (w : BitVec 32) :
    FloatOps.sitofp (F := Ideal) .f32 ((IntOp.cmpi .ne w 0#32).setWidth 32) = edge w := by
  unfold edge IntOp.cmpi
  cases (w != 0#32) <;> simp [FloatOps.sitofp, FloatOps.uitofp]

/-- The literal `1.0` and the literal `0.0`, as both programs print them. -/
def one : EReal := Ideal.ofBits .f32 0x3F800000#32
def zero : EReal := Ideal.ofBits .f32 0x00000000#32

/-- Sender `i`'s contribution to receiver `j`'s in-degree, and to feature `f` of its feature sum. -/
def degTerm (A : SA.Idx → BitVec 32) (b : Fin 8) (j : Fin 4096) (i : Fin 4096) : EReal := edge (A (ix3 b i j))
def msumTerm (X : SX.Idx → EReal) (A : SA.Idx → BitVec 32) (b : Fin 8) (j : Fin 4096) (f : Fin 128) (i : Fin 4096) : EReal :=
  edge (A (ix3 b i j)) * X (ix3 b i f)

/-- The in-degree of receiver `j` and the sum of its senders' features. -/
def deg (A : SA.Idx → BitVec 32) (b : Fin 8) (j : Fin 4096) : EReal := ∑ i : Fin 4096, degTerm A b j i
def msum (X : SX.Idx → EReal) (A : SA.Idx → BitVec 32) (b : Fin 8) (j : Fin 4096) (f : Fin 128) : EReal :=
  ∑ i : Fin 4096, msumTerm X A b j f i

/-- The layer's output from a receiver's feature sum `s` and degree `d` (whatever they are): the dense update of
    the receiver's own features plus the dense image of the mean `s / max(d, 1)`, plus the bias, clamped at zero. -/
def update (X : SX.Idx → EReal) (Wm Wu : SW.Idx → EReal) (bias : SB.Idx → EReal)
    (s : Fin 128 → EReal) (d : EReal) (b : Fin 8) (j : Fin 4096) (u : Fin 128) : EReal :=
  max ((∑ f : Fin 128, X (ix3 b j f) * Wu (ix2 f u) + ∑ f : Fin 128, Ideal.div (s f) (max d one) * Wm (ix2 f u))
        + bias (ix1 u)) zero

/-- The layer at coordinates, and as a function of the output index. -/
def layerAt (X : SX.Idx → EReal) (A : SA.Idx → BitVec 32) (Wm Wu : SW.Idx → EReal) (bias : SB.Idx → EReal)
    (b : Fin 8) (j : Fin 4096) (u : Fin 128) : EReal :=
  update X Wm Wu bias (msum X A b j) (deg A b j) b j u

def layer (X : SX.Idx → EReal) (A : SA.Idx → BitVec 32) (Wm Wu : SW.Idx → EReal) (bias : SB.Idx → EReal) :
    SX.Idx → EReal := fun i => layerAt X A Wm Wu bias (i 0) (i 1) (i 2)

theorem layer_ix3 (X : SX.Idx → EReal) (A : SA.Idx → BitVec 32) (Wm Wu : SW.Idx → EReal) (bias : SB.Idx → EReal)
    (b : Fin 8) (j : Fin 4096) (u : Fin 128) : layer X A Wm Wu bias (ix3 b j u) = layerAt X A Wm Wu bias b j u := rfl

end Cert.Mpnn

end
-- ==== Proof.RefIsSpec.lean ====
/-
  The reference computes the layer.

  Read one operation at a time (the generated read-at-an-index lemmas), the reference's result at the
  output index (b, j, u) is

    max((∑_k x(b, j, k) · W_upd(k, u) + ∑_k (msum / max(0 + deg, 1))(b, j, k) · W_msg(k, u)) + bias(u), 0)

  with `msum(b, j, k) = ∑ᵢ gate(b, i, j) · x(b, i, k)` and `deg(b, j) = ∑ᵢ gate(b, i, j)` — the reference's own
  index functions, composed, name exactly these entries (the index equations below: each is a comparison
  of coordinates). The reduce's initial value is the zero word, and `0 + s = s` on the extended reals. That
  is `Cert.Mpnn.layer`, term for term.
-/
import proofs.«132118_j2903397893033_2_alg».proof.Proof.Gen.ReferenceIdeal.Read
import proofs.«132118_j2903397893033_2_alg».proof.Proof.Spec

noncomputable section

namespace Cert.ReferenceIdeal.RefValue

open scoped BigOperators
open Cert.ReferenceIdeal Cert.ReferenceIdeal.Read Idealize.ShloMosaic Idealize.ShloMosaic.ValueIdx Cert.Mpnn

/-! ## The reference's index functions at coordinates -/

theorem lidx11 (b : Fin 8) (j : Fin 4096) (u k : Fin 128) : lidx_main_v11 (ix3 b j u) k = ix3 b j k :=
  funext fun a => match a with | ⟨0, _⟩ => rfl | ⟨1, _⟩ => rfl | ⟨2, _⟩ => rfl
theorem ridx11 (b : Fin 8) (j : Fin 4096) (u k : Fin 128) : ridx_main_v11 (ix3 b j u) k = ix2 k u :=
  funext fun a => match a with | ⟨0, _⟩ => rfl | ⟨1, _⟩ => rfl
theorem lidx10 (b : Fin 8) (j : Fin 4096) (u k : Fin 128) : lidx_main_v10 (ix3 b j u) k = ix3 b j k :=
  funext fun a => match a with | ⟨0, _⟩ => rfl | ⟨1, _⟩ => rfl | ⟨2, _⟩ => rfl
theorem ridx10 (b : Fin 8) (j : Fin 4096) (u k : Fin 128) : ridx_main_v10 (ix3 b j u) k = ix2 k u :=
  funext fun a => match a with | ⟨0, _⟩ => rfl | ⟨1, _⟩ => rfl
theorem lidx4 (b : Fin 8) (j : Fin 4096) (f : Fin 128) (i : Fin 4096) : lidx_main_v4 (ix3 b j f) i = ix3 b i j :=
  funext fun a => match a with | ⟨0, _⟩ => rfl | ⟨1, _⟩ => rfl | ⟨2, _⟩ => rfl
theorem ridx4 (b : Fin 8) (j : Fin 4096) (f : Fin 128) (i : Fin 4096) : ridx_main_v4 (ix3 b j f) i = ix3 b i f :=
  funext fun a => match a with | ⟨0, _⟩ => rfl | ⟨1, _⟩ => rfl | ⟨2, _⟩ => rfl
theorem idx8 (b : Fin 8) (j : Fin 4096) (f : Fin 128) : idx_main_v8 (ix3 b j f) = ix3 b j (0 : Fin 1) :=
  funext fun a => match a with | ⟨0, _⟩ => rfl | ⟨1, _⟩ => rfl | ⟨2, _⟩ => rfl
theorem idx7 (b : Fin 8) (j : Fin 4096) (z : Fin 1) : idx_main_v7 (ix3 b j z) = ix2 b j :=
  funext fun a => match a with | ⟨0, _⟩ => rfl | ⟨1, _⟩ => rfl
theorem idx3 (b : Fin 8) (j : Fin 4096) (i : Fin 4096) : idx_main_v3 (ix2 b j) i = ix3 b i j :=
  funext fun a => match a with | ⟨0, _⟩ => rfl | ⟨1, _⟩ => rfl | ⟨2, _⟩ => rfl
theorem idx14 (b : Fin 8) (j : Fin 4096) (u : Fin 128) : idx_main_v14 (ix3 b j u) = ix3 (0 : Fin 1) (0 : Fin 1) u :=
  funext fun a => match a with | ⟨0, _⟩ => rfl | ⟨1, _⟩ => rfl | ⟨2, _⟩ => rfl
theorem idx13 (z z' : Fin 1) (u : Fin 128) : idx_main_v13 (ix3 z z' u) = ix1 u :=
  funext fun a => match a with | ⟨0, _⟩ => rfl

/-! ## The stages at coordinates -/

/-- The gate stage at (b, i, j): the edge gate of the adjacency word there. -/
theorem gate_apply (x1 : SA.Idx → BitVec 32) (i : SA.Idx) : val_main_v2 (F := Ideal) x1 i = edge (x1 i) := by
  rw [val_main_v2_apply, val_main_v1_apply, val_main_v0_apply, val_main_c_apply]
  rfl

/-- The in-degree stage at (b, j). -/
theorem deg_apply (x1 : SA.Idx → BitVec 32) (b : Fin 8) (j : Fin 4096) :
    val_main_v3 (F := Ideal) x1 (ix2 b j) = deg x1 b j := by
  rw [val_main_v3_apply, val_main_cst_apply]
  show Ideal.ofBits .f32 0x00000000#32 + _ = _
  rw [Ideal.ofBits_zero_f32, zero_add]
  exact Finset.sum_congr rfl fun i _ => by rw [gate_apply, idx3]; rfl

/-- The feature-sum stage at (b, j, f). -/
theorem msum_apply (x0 : SX.Idx → EReal) (x1 : SA.Idx → BitVec 32) (b : Fin 8) (j : Fin 4096) (f : Fin 128) :
    val_main_v4 (F := Ideal) x0 x1 (ix3 b j f) = msum x0 x1 b j f := by
  rw [val_main_v4_apply]
  exact Finset.sum_congr rfl fun i _ => by rw [gate_apply, lidx4, ridx4]; rfl

/-- The clamped degree, broadcast along the features, at (b, j, f). -/
theorem clamp_apply (x1 : SA.Idx → BitVec 32) (b : Fin 8) (j : Fin 4096) (f : Fin 128) :
    val_main_v8 (F := Ideal) x1 (ix3 b j f) = max (deg x1 b j) one := by
  rw [val_main_v8_apply, idx8, val_main_v7_apply, idx7, val_main_v6_apply, deg_apply, val_main_v5_apply,
    val_main_cst_0_apply]
  rfl

/-- The mean stage at (b, j, f). -/
theorem mean_apply (x0 : SX.Idx → EReal) (x1 : SA.Idx → BitVec 32) (b : Fin 8) (j : Fin 4096) (f : Fin 128) :
    val_main_v9 (F := Ideal) x0 x1 (ix3 b j f) = Ideal.div (msum x0 x1 b j f) (max (deg x1 b j) one) := by
  rw [val_main_v9_apply, msum_apply, clamp_apply]
  rfl

/-- The reference's result is the layer. -/
theorem ref_eq_layer (x0 : SX.Idx → EReal) (x1 : SA.Idx → BitVec 32) (x2 x3 : SW.Idx → EReal) (x4 : SB.Idx → EReal) :
    val_main_v16 (F := Ideal) x0 x1 x2 x3 x4 = layer x0 x1 x2 x3 x4 := by
  funext i
  obtain ⟨b, j, u, rfl⟩ : ∃ (b : Fin 8) (j : Fin 4096) (u : Fin 128), i = ix3 b j u := ⟨i 0, i 1, i 2, eq_ix3 i⟩
  rw [layer_ix3, val_main_v16_apply, val_main_v15_apply, val_main_v12_apply, val_main_v11_apply, val_main_v10_apply,
    val_main_v14_apply, idx14, val_main_v13_apply, idx13, val_main_call0_v0_apply, val_main_call0_cst_apply]
  simp only [lidx11, ridx11, lidx10, ridx10, mean_apply]
  rfl

end Cert.ReferenceIdeal.RefValue

end
-- ==== Proof.PiecesB.lean ====
/-
    What the body leaves in its two accumulators at a point that is neither the first nor the last of a batch.

  At such a point the body stores each accumulator once, whole: the feature-sum accumulator receives
  its previous contents plus the product of the point's 256×4096 edge gates (transposed) with the point's
  256 sender rows of `x`, and the degree accumulator its previous contents plus the column sums of the
  gates. Both stores cover their buffer, so what the buffer holds afterwards is the stored value, a pure
  function of the adjacency block, the resident `x` block and the previous contents. The sender rows are
  rows `256·i … 256·i + 255` of the resident block (`rows`), `i` the point's second coordinate.
-/
import proofs.«132118_j2903397893033_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a whole-buffer access, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The 256 sender rows of the point: the resident `x` block read through the rows starting at `256·i`. -/
abbrev rows (i : grid0.Coords) (x1 : Vec F S1x4096x128 .f32) : Vec F S1x256x128 .f32 :=
  View.ld x1 (Rect.unit (k0_off1 i) S1x256x128.size (k0_off1_inb i))

/-- The feature-sum accumulator after a middle point: the previous contents plus this tile's product. -/
theorem sout_B_0 (c : Dev nD) (i : grid0.Coords) (arg2 : Memref sig .tc .vmem S1x256x4096 .i32) (harg2 : arg2.IsWhole) (arg3 : Memref sig .tc .vmem S1x4096x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S1x4096 .f32) (harg9 : arg9.IsWhole) (hc0 : ¬cond0_0 i) (hc1 : ¬cond0_1 i) (x0 : Vec F S1x256x4096 .i32) (x1 : Vec F S1x4096x128 .f32) (x2 : Vec F S128x128 .bf16) (x3 : Vec F S128x128 .bf16) (x4 : Vec F S1x128 .f32) (xs0 : Vec F S4096x128 .f32) (xs1 : Vec F S1x4096 .f32) :
    sout0_B_0 c i arg2 harg2 arg3 harg3 arg4 harg4 arg5 harg5 arg6 harg6 arg7 harg7 arg8 harg8 arg9 harg9 hc0 hc1 x0 x1 x2 x3 x4 xs0 xs1 = k0_pay5 x0 (rows i x1) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  rw [View.canon_unit_zero hz2]
  simp only [View.readAt_eq_ld, harg2.read_unread, harg3.read_unread, harg8.read_unread,
    View.ld_unit_zero (S := S4096x128) hz2, View.ld_unit_zero (S := S1x256x4096) hz3]

/-- The degree accumulator after a middle point: the previous contents plus this tile's column sums. -/
theorem sout_B_1 (c : Dev nD) (i : grid0.Coords) (arg2 : Memref sig .tc .vmem S1x256x4096 .i32) (harg2 : arg2.IsWhole) (arg3 : Memref sig .tc .vmem S1x4096x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S1x4096 .f32) (harg9 : arg9.IsWhole) (hc0 : ¬cond0_0 i) (hc1 : ¬cond0_1 i) (x0 : Vec F S1x256x4096 .i32) (x1 : Vec F S1x4096x128 .f32) (x2 : Vec F S128x128 .bf16) (x3 : Vec F S128x128 .bf16) (x4 : Vec F S1x128 .f32) (xs0 : Vec F S4096x128 .f32) (xs1 : Vec F S1x4096 .f32) :
    sout0_B_1 c i arg2 harg2 arg3 harg3 arg4 harg4 arg5 harg5 arg6 harg6 arg7 harg7 arg8 harg8 arg9 harg9 hc0 hc1 x0 x1 x2 x3 x4 xs0 xs1 = k0_pay6 x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  rw [View.canon_unit_zero hz2]
  simp only [View.readAt_eq_ld, harg2.read_unread, harg9.read_unread,
    View.ld_unit_zero (S := S1x4096) hz2, View.ld_unit_zero (S := S1x256x4096) hz3]

end Cert.KernelIdeal.Pieces

end
-- ==== Proof.PiecesA.lean ====
/-
    What the body leaves in its two accumulators at the first point of a batch.

  There the body first stores zeros into both accumulators, whole, then reads them back and accumulates as
  at every point: the load after the zero store reads the zeros just stored, so the feature-sum accumulator
  ends at zeros plus this tile's product and the degree accumulator at zeros plus this tile's column sums —
  whatever the accumulators held before the point (the previous batch's totals, or anything at all at the
  very first point).
-/
import proofs.«132118_j2903397893033_2_alg».proof.Proof.PiecesB
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The feature-sum accumulator after a batch's first point: zeros plus the first tile's product. -/
theorem sout_A_0 (c : Dev nD) (i : grid0.Coords) (arg2 : Memref sig .tc .vmem S1x256x4096 .i32) (harg2 : arg2.IsWhole) (arg3 : Memref sig .tc .vmem S1x4096x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S1x4096 .f32) (harg9 : arg9.IsWhole) (hc0 : cond0_0 i) (hc1 : ¬cond0_1 i) (x0 : Vec F S1x256x4096 .i32) (x1 : Vec F S1x4096x128 .f32) (x2 : Vec F S128x128 .bf16) (x3 : Vec F S128x128 .bf16) (x4 : Vec F S1x128 .f32) :
    sout0_A_0 c i arg2 harg2 arg3 harg3 arg4 harg4 arg5 harg5 arg6 harg6 arg7 harg7 arg8 harg8 arg9 harg9 hc0 hc1 x0 x1 x2 x3 x4 = k0_pay5 x0 (rows i x1) (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S4096x128) hz2, View.readCov_unit_zero (S := S4096x128) _ hz2]
  simp only [View.readAt_eq_ld, harg2.read_unread, harg3.read_unread,
    View.ld_unit_zero (S := S1x256x4096) hz3]
  rfl

/-- The degree accumulator after a batch's first point: zeros plus the first tile's column sums. -/
theorem sout_A_1 (c : Dev nD) (i : grid0.Coords) (arg2 : Memref sig .tc .vmem S1x256x4096 .i32) (harg2 : arg2.IsWhole) (arg3 : Memref sig .tc .vmem S1x4096x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S1x4096 .f32) (harg9 : arg9.IsWhole) (hc0 : cond0_0 i) (hc1 : ¬cond0_1 i) (x0 : Vec F S1x256x4096 .i32) (x1 : Vec F S1x4096x128 .f32) (x2 : Vec F S128x128 .bf16) (x3 : Vec F S128x128 .bf16) (x4 : Vec F S1x128 .f32) :
    sout0_A_1 c i arg2 harg2 arg3 harg3 arg4 harg4 arg5 harg5 arg6 harg6 arg7 harg7 arg8 harg8 arg9 harg9 hc0 hc1 x0 x1 x2 x3 x4 = k0_pay6 x0 (k0_pay3 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x4096) hz2, View.readCov_unit_zero (S := S1x4096) _ hz2]
  simp only [View.readAt_eq_ld, harg2.read_unread, View.ld_unit_zero (S := S1x256x4096) hz3]

end Cert.KernelIdeal.Pieces

end
-- ==== Proof.PiecesC.lean ====
/-
    What the body leaves at the last point of a batch: in its two accumulators, and in the output block.

  The accumulators are updated as at a middle point. Then the epilogue reads both accumulators back — the
  loads read what the point has just stored — together with the whole resident `x` block, the two weight
  matrices and the bias, and stores the layer's output for the batch into the output block, whole: the
  output block holds the epilogue's value at the point's own final accumulators.
-/
import proofs.«132118_j2903397893033_2_alg».proof.Proof.PiecesB
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The feature-sum accumulator after a batch's last point. -/
theorem sout_C_0 (c : Dev nD) (i : grid0.Coords) (arg2 : Memref sig .tc .vmem S1x256x4096 .i32) (harg2 : arg2.IsWhole) (arg3 : Memref sig .tc .vmem S1x4096x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S1x4096 .f32) (harg9 : arg9.IsWhole) (hc0 : ¬cond0_0 i) (hc1 : cond0_1 i) (x0 : Vec F S1x256x4096 .i32) (x1 : Vec F S1x4096x128 .f32) (x2 : Vec F S128x128 .bf16) (x3 : Vec F S128x128 .bf16) (x4 : Vec F S1x128 .f32) (xs0 : Vec F S4096x128 .f32) (xs1 : Vec F S1x4096 .f32) :
    sout0_C_0 c i arg2 harg2 arg3 harg3 arg4 harg4 arg5 harg5 arg6 harg6 arg7 harg7 arg8 harg8 arg9 harg9 hc0 hc1 x0 x1 x2 x3 x4 xs0 xs1 = k0_pay5 x0 (rows i x1) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S4096x128) hz2]
  simp only [View.readAt_eq_ld, harg2.read_unread, harg3.read_unread, harg8.read_unread,
    View.ld_unit_zero (S := S4096x128) hz2, View.ld_unit_zero (S := S1x256x4096) hz3]
  rfl

/-- The degree accumulator after a batch's last point. -/
theorem sout_C_1 (c : Dev nD) (i : grid0.Coords) (arg2 : Memref sig .tc .vmem S1x256x4096 .i32) (harg2 : arg2.IsWhole) (arg3 : Memref sig .tc .vmem S1x4096x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S1x4096 .f32) (harg9 : arg9.IsWhole) (hc0 : ¬cond0_0 i) (hc1 : cond0_1 i) (x0 : Vec F S1x256x4096 .i32) (x1 : Vec F S1x4096x128 .f32) (x2 : Vec F S128x128 .bf16) (x3 : Vec F S128x128 .bf16) (x4 : Vec F S1x128 .f32) (xs0 : Vec F S4096x128 .f32) (xs1 : Vec F S1x4096 .f32) :
    sout0_C_1 c i arg2 harg2 arg3 harg3 arg4 harg4 arg5 harg5 arg6 harg6 arg7 harg7 arg8 harg8 arg9 harg9 hc0 hc1 x0 x1 x2 x3 x4 xs0 xs1 = k0_pay6 x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S1x4096) hz2]
  simp only [View.readAt_eq_ld, harg2.read_unread, harg9.read_unread,
    View.ld_unit_zero (S := S1x4096) hz2, View.ld_unit_zero (S := S1x256x4096) hz3]

/-- The output block after a batch's last point: the epilogue at the point's final accumulators. -/
theorem out_C_5 (c : Dev nD) (i : grid0.Coords) (arg2 : Memref sig .tc .vmem S1x256x4096 .i32) (harg2 : arg2.IsWhole) (arg3 : Memref sig .tc .vmem S1x4096x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S1x4096x128 .f32) (harg7 : arg7.IsWhole) (arg8 : Memref sig .tc .vmem S4096x128 .f32) (harg8 : arg8.IsWhole) (arg9 : Memref sig .tc .vmem S1x4096 .f32) (harg9 : arg9.IsWhole) (hc0 : ¬cond0_0 i) (hc1 : cond0_1 i) (x0 : Vec F S1x256x4096 .i32) (x1 : Vec F S1x4096x128 .f32) (x2 : Vec F S128x128 .bf16) (x3 : Vec F S128x128 .bf16) (x4 : Vec F S1x128 .f32) (xs0 : Vec F S4096x128 .f32) (xs1 : Vec F S1x4096 .f32) :
    out0_C_5 c i arg2 harg2 arg3 harg3 arg4 harg4 arg5 harg5 arg6 harg6 arg7 harg7 arg8 harg8 arg9 harg9 hc0 hc1 x0 x1 x2 x3 x4 xs0 xs1
      = k0_pay1 (k0_pay6 x0 xs1) (k0_pay5 x0 (rows i x1) xs0) x1 x2 x3 x4 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S1x4096x128) hz3, View.readCov_unit_zero (S := S1x4096) _ hz2,
    View.readCov_unit_zero (S := S4096x128) _ hz2]
  simp only [View.readAt_eq_ld, harg2.read_unread, harg3.read_unread, harg4.read_unread, harg5.read_unread,
    harg6.read_unread, harg8.read_unread, harg9.read_unread,
    View.ld_unit_zero (S := S4096x128) hz2, View.ld_unit_zero (S := S1x4096) hz2, View.ld_unit_zero (S := S128x128) hz2,
    View.ld_unit_zero (S := S1x128) hz2, View.ld_unit_zero (S := S1x256x4096) hz3, View.ld_unit_zero (S := S1x4096x128) hz3]
  rfl

end Cert.KernelIdeal.Pieces

end
-- ==== Proof.Payloads.lean ====
/-
  The body's arithmetic, read one entry at a time on the extended reals.

  `tile_msum`: the feature-sum store's value at (j, f) is the previous contents there plus
      ∑_r gate(r, j) · x_rows(r, f)   over the tile's 256 sender rows r
  — the matrix product contracts the ROW axis of both operands (the gates enter transposed), and into a zero
  accumulator it is just that sum. `tile_deg`: the degree store's value at (0, j) is the previous contents plus
  ∑_r gate(r, j) — the column sum of the gates. `epilogue`: the output store's value at (0, j, u), from final
  accumulators `s` (features) and `d` (degrees), is
      max((∑_f x(0, j, f) · W_upd(f, u) + ∑_f (s(j, f) / max(d(0, j), 1)) · W_msg(f, u)) + bias(0, u), 0)
  — the degree row is transposed to a column and broadcast along the features before the division. A gate is the
  edge gate of the adjacency word (`Cert.Mpnn.edge`): the kernel widens the comparison bit to 32 bits and reads it
  signed, which is the same 0 or 1. Changes of float format are the identity on the extended reals.
-/
import proofs.«132118_j2903397893033_2_alg».proof.Proof.Gen.KernelIdeal.Skeleton
import proofs.«132118_j2903397893033_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open scoped BigOperators
open Cert.KernelIdeal Cert.KernelIdeal.Gen Idealize.ShloMosaic Idealize.ShloMosaic.ValueIdx Cert.Mpnn

/-! ## The two matrix products' operand indices -/

theorem tl0 (i : S4096x128.Idx) (q : dot_S256x4096_S256x128_S4096x128_0_0_1_1_n_n.contr.Idx) : (dot_S256x4096_S256x128_S4096x128_0_0_1_1_n_n.lhsIdx i q 0).val = (q ⟨0, by decide⟩).val :=
  dot_S256x4096_S256x128_S4096x128_0_0_1_1_n_n.lhsIdx_val_of_single rfl i q
theorem tl1 (i : S4096x128.Idx) (q : dot_S256x4096_S256x128_S4096x128_0_0_1_1_n_n.contr.Idx) : (dot_S256x4096_S256x128_S4096x128_0_0_1_1_n_n.lhsIdx i q 1).val = (i 0).val := by
  unfold DotDims.lhsIdx
  rw [dif_neg (show ¬(1 : Fin S256x4096.rank) ∈ dot_S256x4096_S256x128_S4096x128_0_0_1_1_n_n.lhsBatch by decide), dif_pos (show (1 : Fin S256x4096.rank) ∈ dot_S256x4096_S256x128_S4096x128_0_0_1_1_n_n.lhsNonContracting by decide)]
  rfl
theorem tr0 (i : S4096x128.Idx) (q : dot_S256x4096_S256x128_S4096x128_0_0_1_1_n_n.contr.Idx) : (dot_S256x4096_S256x128_S4096x128_0_0_1_1_n_n.rhsIdx i q 0).val = (q ⟨0, by decide⟩).val :=
  dot_S256x4096_S256x128_S4096x128_0_0_1_1_n_n.rhsIdx_val_of_single rfl i q
theorem tr1 (i : S4096x128.Idx) (q : dot_S256x4096_S256x128_S4096x128_0_0_1_1_n_n.contr.Idx) : (dot_S256x4096_S256x128_S4096x128_0_0_1_1_n_n.rhsIdx i q 1).val = (i 1).val := by
  unfold DotDims.rhsIdx
  rw [dif_neg (show ¬(1 : Fin S256x128.rank) ∈ dot_S256x4096_S256x128_S4096x128_0_0_1_1_n_n.rhsBatch by decide), dif_pos (show (1 : Fin S256x128.rank) ∈ dot_S256x4096_S256x128_S4096x128_0_0_1_1_n_n.rhsNonContracting by decide)]
  rfl

theorem dl0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem dl1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q
theorem dr0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q
theorem dr1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The tile product at (j, f), into the zero accumulator: the sum over the tile's rows. -/
theorem tile_matmul (L : FVec Ideal S256x4096 .bf16) (R : FVec Ideal S256x128 .bf16) (j : Fin 4096) (f : Fin 128) :
    FloatOps.matmul dot_S256x4096_S256x128_S4096x128_0_0_1_1_n_n none L R (constant S4096x128 .f32 0x00000000#32) (ix2 j f)
      = ∑ r : Fin 256, L (ix2 r j) * R (ix2 r f) := by
  rw [Ideal.matmul_constant_zero_apply, ← Equiv.sum_comp (contrEquiv1 dot_S256x4096_S256x128_S4096x128_0_0_1_1_n_n 256 rfl rfl).symm]
  refine Finset.sum_congr rfl fun r _ => ?_
  have hk := contrEquiv1_symm_val dot_S256x4096_S256x128_S4096x128_0_0_1_1_n_n 256 rfl rfl r
  have el : dot_S256x4096_S256x128_S4096x128_0_0_1_1_n_n.lhsIdx (ix2 j f) ((contrEquiv1 dot_S256x4096_S256x128_S4096x128_0_0_1_1_n_n 256 rfl rfl).symm r) = ix2 r j := funext fun a => Fin.ext (by
    match a with
    | ⟨0, _⟩ => exact (tl0 _ _).trans hk
    | ⟨1, _⟩ => exact tl1 _ _)
  have er : dot_S256x4096_S256x128_S4096x128_0_0_1_1_n_n.rhsIdx (ix2 j f) ((contrEquiv1 dot_S256x4096_S256x128_S4096x128_0_0_1_1_n_n 256 rfl rfl).symm r) = ix2 r f := funext fun a => Fin.ext (by
    match a with
    | ⟨0, _⟩ => exact (tr0 _ _).trans hk
    | ⟨1, _⟩ => exact tr1 _ _)
  rw [el, er]

/-- A dense product at (j, u), into the zero accumulator: the sum over the 128 input features. -/
theorem dense_matmul (L : FVec Ideal S4096x128 .bf16) (R : FVec Ideal S128x128 .bf16) (j : Fin 4096) (u : Fin 128) :
    FloatOps.matmul dot_S4096x128_S128x128_S4096x128_1_0_0_1_n_n none L R (constant S4096x128 .f32 0x00000000#32) (ix2 j u)
      = ∑ f : Fin 128, L (ix2 j f) * R (ix2 f u) := by
  rw [Ideal.matmul_constant_zero_apply, ← Equiv.sum_comp (contrEquiv1 dot_S4096x128_S128x128_S4096x128_1_0_0_1_n_n 128 rfl rfl).symm]
  refine Finset.sum_congr rfl fun f _ => ?_
  have hk := contrEquiv1_symm_val dot_S4096x128_S128x128_S4096x128_1_0_0_1_n_n 128 rfl rfl f
  have el : dot_S4096x128_S128x128_S4096x128_1_0_0_1_n_n.lhsIdx (ix2 j u) ((contrEquiv1 dot_S4096x128_S128x128_S4096x128_1_0_0_1_n_n 128 rfl rfl).symm f) = ix2 j f := funext fun a => Fin.ext (by
    match a with
    | ⟨0, _⟩ => exact dl0 _ _
    | ⟨1, _⟩ => exact (dl1 _ _).trans hk)
  have er : dot_S4096x128_S128x128_S4096x128_1_0_0_1_n_n.rhsIdx (ix2 j u) ((contrEquiv1 dot_S4096x128_S128x128_S4096x128_1_0_0_1_n_n 128 rfl rfl).symm f) = ix2 f u := funext fun a => Fin.ext (by
    match a with
    | ⟨0, _⟩ => exact (dr0 _ _).trans hk
    | ⟨1, _⟩ => exact dr1 _ _)
  rw [el, er]

/-! ## The gates -/

/-- The comparison bit of the adjacency block at row `r`, column `j`. -/
theorem gate_bit (v3 : Vec Ideal S1x256x4096 .i32) (r : Fin 256) (j : Fin 4096) :
    k0_pay4 (F := Ideal) v3 (ix2 r j) = IntOp.cmpi .ne (v3 (ix3 (0 : Fin 1) r j)) 0#32 := by
  show IntOp.cmpi .ne (shapeCast S256x4096 v3 shapeCasts_S1x256x4096_S256x4096 (ix2 r j)) 0#32 = _
  rw [shapeCast_1ab_ab_apply]

/-- Widened and read as a number it is the edge gate of the word. -/
theorem gate_val (v3 : Vec Ideal S1x256x4096 .i32) (r : Fin 256) (j : Fin 4096) :
    (sitofp .f32 (extui 32 (k0_pay4 (F := Ideal) v3) natLt_1_32) : FVec Ideal S256x4096 .f32) (ix2 r j)
      = edge (v3 (ix3 (0 : Fin 1) r j)) := by
  show FloatOps.sitofp (F := Ideal) .f32 ((k0_pay4 (F := Ideal) v3 (ix2 r j)).setWidth 32) = _
  rw [gate_bit, edge_of_widened]

/-! ## The accumulating stores -/

/-- The feature-sum store at (j, f): the previous contents plus the tile's gated sum of sender rows. -/
theorem tile_msum (v3 : Vec Ideal S1x256x4096 .i32) (v13 : Vec Ideal S1x256x128 .f32) (v16 : Vec Ideal S4096x128 .f32)
    (j : Fin 4096) (f : Fin 128) :
    k0_pay5 (F := Ideal) v3 v13 v16 (ix2 j f)
      = v16 (ix2 j f) + ∑ r : Fin 256, edge (v3 (ix3 (0 : Fin 1) r j)) * v13 (ix3 (0 : Fin 1) r f) := by
  unfold k0_pay5
  (try dsimp only)
  rw [shapeCast_self]
  show v16 (ix2 j f) + FloatOps.matmul (F := Ideal) dot_S256x4096_S256x128_S4096x128_0_0_1_1_n_n none
      (truncf .bf16 (sitofp .f32 (extui 32 (k0_pay4 (F := Ideal) v3) natLt_1_32)) bitsLt_bf16_f32)
      (truncf .bf16 (shapeCast S256x128 v13 shapeCasts_S1x256x128_S256x128) bitsLt_bf16_f32)
      (constant S4096x128 .f32 0x00000000#32) (ix2 j f) = _
  rw [tile_matmul]
  refine congrArg (v16 (ix2 j f) + ·) (Finset.sum_congr rfl fun r _ => ?_)
  show (sitofp .f32 (extui 32 (k0_pay4 (F := Ideal) v3) natLt_1_32) : FVec Ideal S256x4096 .f32) (ix2 r j)
      * shapeCast S256x128 v13 shapeCasts_S1x256x128_S256x128 (ix2 r f) = _
  rw [gate_val, shapeCast_1ab_ab_apply]

/-- The column sum of the gates: a lane-wise sum over the tile's 256 rows, from the zero word. -/
theorem gate_colsum (v : FVec Ideal S256x4096 .f32) (hacc : (0x00000000#32 : BitVec 32) = 0x00000000#32) (j : Fin 4096) :
    multiReduction .add [0] S4096 v 0x00000000#32 reduces_S256x4096_S4096 (.inl rfl) hacc (ix1 j)
      = ∑ r : Fin 256, v (ix2 r j) :=
  (Ideal.multiReduction_add_single v 0x00000000#32 reduces_S256x4096_S4096 (.inl rfl) hacc (ix1 j)).trans
    (Finset.sum_congr rfl fun r _ => congrArg v (funext fun a => Fin.ext (by
      match a with
      | ⟨0, _⟩ => rfl
      | ⟨1, _⟩ => rfl)))

/-- The degree store at (0, j): the previous contents plus the tile's column sum of gates. -/
theorem tile_deg (v3 : Vec Ideal S1x256x4096 .i32) (v22 : Vec Ideal S1x4096 .f32) (z : Fin 1) (j : Fin 4096) :
    k0_pay6 (F := Ideal) v3 v22 (ix2 z j) = v22 (ix2 z j) + ∑ r : Fin 256, edge (v3 (ix3 (0 : Fin 1) r j)) := by
  unfold k0_pay6
  (try dsimp only)
  rw [shapeCast_self]
  show v22 (ix2 z j) + shapeCast S1x4096
      (multiReduction .add [0] S4096 (sitofp .f32 (extui 32 (k0_pay4 (F := Ideal) v3) natLt_1_32) : FVec Ideal S256x4096 .f32)
        0x00000000#32 reduces_S256x4096_S4096 (.inl rfl) rfl) shapeCasts_S4096_S1x4096 (ix2 z j) = _
  rw [shapeCast_a_1a_apply, gate_colsum]
  exact congrArg (v22 (ix2 z j) + ·) (Finset.sum_congr rfl fun r _ => gate_val v3 r j)

/-! ## The zero stores -/

theorem zeros_msum (i : S4096x128.Idx) : k0_pay2 (F := Ideal) i = 0 := by
  unfold k0_pay2
  (try dsimp only)
  rw [shapeCast_self]
  exact Ideal.ofBits_zero_f32

theorem zeros_deg (i : S1x4096.Idx) : k0_pay3 (F := Ideal) i = 0 := by
  unfold k0_pay3
  (try dsimp only)
  rw [shapeCast_self]
  exact Ideal.ofBits_zero_f32

/-! ## The epilogue -/

/-- A column [4096, 1] broadcast along 128 features reads, at (j, f), the column's entry j. -/
theorem column_broadcast (v : FVec Ideal S4096x1 .f32) (j : Fin 4096) (f : Fin 128) :
    broadcastTo S4096x128 v broadcasts_S4096x1_S4096x128 (ix2 j f) = v (ix2 j (0 : Fin 1)) :=
  broadcastTo_apply v broadcasts_S4096x1_S4096x128 (ix2 j f) (ix2 j (0 : Fin 1)) fun a => by
    match a with
    | ⟨0, _⟩ => show j.val = if (4096 : Nat) = 1 then 0 else j.val; rw [if_neg (by decide)]
    | ⟨1, _⟩ => show 0 = if (1 : Nat) = 1 then 0 else f.val; rw [if_pos rfl]

/-- The output store at (0, j, u) from final accumulators `s` and `d`. -/
theorem epilogue (d : Vec Ideal S1x4096 .f32) (s : Vec Ideal S4096x128 .f32) (x : Vec Ideal S1x4096x128 .f32)
    (wm wu : Vec Ideal S128x128 .bf16) (bias : Vec Ideal S1x128 .f32) (z : Fin 1) (j : Fin 4096) (u : Fin 128) :
    k0_pay1 (F := Ideal) d s x wm wu bias (ix3 z j u)
      = max ((∑ f : Fin 128, x (ix3 (0 : Fin 1) j f) * wu (ix2 f u)
              + ∑ f : Fin 128, Ideal.div (s (ix2 j f)) (max (d (ix2 (0 : Fin 1) j)) one) * wm (ix2 f u))
            + bias (ix2 (0 : Fin 1) u)) zero := by
  unfold k0_pay1
  (try dsimp only)
  rw [shapeCast_ab_1ab_apply, shapeCast_self, shapeCast_self, shapeCast_self]
  show max ((FloatOps.matmul (F := Ideal) dot_S4096x128_S128x128_S4096x128_1_0_0_1_n_n none
        (truncf .bf16 (shapeCast S4096x128 x shapeCasts_S1x4096x128_S4096x128) bitsLt_bf16_f32) wu
        (constant S4096x128 .f32 0x00000000#32) (ix2 j u)
      + FloatOps.matmul (F := Ideal) dot_S4096x128_S128x128_S4096x128_1_0_0_1_n_n none
        (truncf .bf16 (divf s (broadcastTo S4096x128
          (maximumf (F := Ideal) (transpose S4096x1 [1, 0] d transposes_S1x4096_p1_0_S4096x1) (broadcast S4096x1 (Scalar.ofBits .f32 0x3F800000#32)))
          broadcasts_S4096x1_S4096x128)) bitsLt_bf16_f32) wm
        (constant S4096x128 .f32 0x00000000#32) (ix2 j u))
      + broadcastTo S4096x128 bias broadcasts_S1x128_S4096x128 (ix2 j u)) (Ideal.ofBits .f32 0x00000000#32) = _
  rw [dense_matmul, dense_matmul, broadcastTo_1b_ab_apply]
  unfold zero
  refine congrArg (max · _) (congrArg (· + _) ?_)
  refine congrArg₂ (· + ·) (Finset.sum_congr rfl fun f _ => ?_) (Finset.sum_congr rfl fun f _ => ?_)
  · show shapeCast S4096x128 x shapeCasts_S1x4096x128_S4096x128 (ix2 j f) * wu (ix2 f u) = _
    rw [shapeCast_1ab_ab_apply]
  · show Ideal.div (s (ix2 j f)) (broadcastTo S4096x128
          (maximumf (F := Ideal) (transpose S4096x1 [1, 0] d transposes_S1x4096_p1_0_S4096x1) (broadcast S4096x1 (Scalar.ofBits .f32 0x3F800000#32)))
          broadcasts_S4096x1_S4096x128 (ix2 j f)) * wm (ix2 f u) = _
    rw [column_broadcast]
    show Ideal.div (s (ix2 j f)) (max (transpose S4096x1 [1, 0] d transposes_S1x4096_p1_0_S4096x1 (ix2 j (0 : Fin 1))) one) * wm (ix2 f u) = _
    rw [transpose_ix2_apply]

end Cert.KernelIdeal.Payload

end
-- ==== Proof.Blocks.lean ====
/-
  The blocks the body reads at a grid point, as entries of the argument arrays.

  The grid has 128 points; point `t` is batch `t / 16`, tile `t % 16` (the printed index maps, decided once over
  the grid). At `t` the adjacency window holds rows `256·(t % 16) … + 255` of batch `t / 16`; the `x` window holds the
  whole batch, and the body's 256 sender rows are its rows `256·(t % 16) … + 255`; the two weight windows and the
  bias window hold the arrays the host prepared before the launch — the weights with their float format changed,
  which on the extended reals is the identity, and the bias reshaped to one row.
-/
import proofs.«132118_j2903397893033_2_alg».proof.Proof.Gen.KernelIdeal.Frame
import proofs.«132118_j2903397893033_2_alg».proof.Proof.PiecesB
import proofs.«132118_j2903397893033_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Cert.KernelIdeal.Pieces Idealize.ShloMosaic Idealize.ShloMosaic.TcCoe Idealize.SL.Sem
open Idealize.ShloMosaic.ValueIdx Cert.Mpnn

variable (m : (ℓ : Loc nD τ sig) → Buf (Elt Ideal) ℓ)

/-- The argument arrays as the kernel is launched on them. -/
abbrev argX (c : Dev nD) : S8x4096x128.Idx → EReal := m ((c : Thread nD τ).loc main_arg0)
abbrev argA (c : Dev nD) : S8x4096x4096.Idx → BitVec 32 := m ((c : Thread nD τ).loc main_arg1)
abbrev argWm (c : Dev nD) : S128x128.Idx → EReal := m ((c : Thread nD τ).loc main_arg2)
abbrev argWu (c : Dev nD) : S128x128.Idx → EReal := m ((c : Thread nD τ).loc main_arg3)
abbrev argB (c : Dev nD) : S128.Idx → EReal := m ((c : Thread nD τ).loc main_arg4)

/-- The printed index maps and the body's row offset at every point: batch `t / 16`, tile `t % 16`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 16 ∧ win0_5.index t (1 : Fin 3) = 0 ∧ win0_5.index t (2 : Fin 3) = 0
    ∧ k0_off1 (grid0.coords t) (0 : Fin 3) = 0 ∧ k0_off1 (grid0.coords t) (1 : Fin 3) = 256 * (t.val % 16)
    ∧ k0_off1 (grid0.coords t) (2 : Fin 3) = 0 :=
  (by decide +kernel : ∀ t : Fin grid0.N, _)

/-- The adjacency block at `t`: rows of tile `k = t % 16` of batch `b = t / 16`. -/
theorem blk_adj (c : Dev nD) (t : Fin cfg0.N) (b : Fin 8) (k : Fin 16) (hb : b.val = t.val / 16) (hk : k.val = t.val % 16)
    (r : Fin 256) (j : Fin 4096) :
    (iblk m c 0 t : Vec Ideal S1x256x4096 .i32) (ix3 (0 : Fin 1) r j) = argA m c (ix3 b (row k r) j) := by
  obtain ⟨e0, e1, e2, -⟩ := idx_facts t
  unfold iblk
  rw [View.read_apply]
  show V m c main_arg1 _ = _
  rw [V_main_arg1]
  refine congrArg (argA m c) (funext fun a => Fin.ext ?_)
  match a with
  | ⟨0, _⟩ => show win0_0.index t (0 : Fin 3) * 1 + 1 * 0 = b.val; rw [e0, hb]; omega
  | ⟨1, _⟩ => show win0_0.index t (1 : Fin 3) * 256 + 1 * r.val = 256 * k.val + r.val; rw [e1, hk]; omega
  | ⟨2, _⟩ => show win0_0.index t (2 : Fin 3) * 4096 + 1 * j.val = j.val; rw [e2]; omega

/-- The `x` block at `t`: all of batch `b = t / 16`. -/
theorem blk_x (c : Dev nD) (t : Fin cfg0.N) (b : Fin 8) (hb : b.val = t.val / 16) (j : Fin 4096) (f : Fin 128) :
    (iblk m c 1 t : Vec Ideal S1x4096x128 .f32) (ix3 (0 : Fin 1) j f) = argX m c (ix3 b j f) := by
  obtain ⟨-, -, -, e0, e1, e2, -⟩ := idx_facts t
  unfold iblk
  rw [View.read_apply]
  show V m c main_arg0 _ = _
  rw [V_main_arg0]
  refine congrArg (argX m c) (funext fun a => Fin.ext ?_)
  match a with
  | ⟨0, _⟩ => show win0_1.index t (0 : Fin 3) * 1 + 1 * 0 = b.val; rw [e0, hb]; omega
  | ⟨1, _⟩ => show win0_1.index t (1 : Fin 3) * 4096 + 1 * j.val = j.val; rw [e1]; omega
  | ⟨2, _⟩ => show win0_1.index t (2 : Fin 3) * 128 + 1 * f.val = f.val; rw [e2]; omega

/-- The body's sender rows at `t`: rows of tile `k = t % 16` of the `x` block. -/
theorem blk_rows (c : Dev nD) (t : Fin cfg0.N) (b : Fin 8) (k : Fin 16) (hb : b.val = t.val / 16) (hk : k.val = t.val % 16)
    (r : Fin 256) (f : Fin 128) :
    rows (grid0.coords t) (iblk m c 1 t : Vec Ideal S1x4096x128 .f32) (ix3 (0 : Fin 1) r f) = argX m c (ix3 b (row k r) f) := by
  obtain ⟨-, -, -, -, -, -, -, -, -, -, -, -, -, -, -, o0, o1, o2⟩ := idx_facts t
  have hr : (Rect.unit (s := S1x4096x128) (k0_off1 (grid0.coords t)) S1x256x128.size (k0_off1_inb (grid0.coords t))).idx (ix3 (0 : Fin 1) r f)
      = ix3 (0 : Fin 1) (row k r) f := funext fun a => Fin.ext (by
    match a with
    | ⟨0, _⟩ => show k0_off1 (grid0.coords t) (0 : Fin 3) + 1 * 0 = 0; rw [o0]
    | ⟨1, _⟩ => show k0_off1 (grid0.coords t) (1 : Fin 3) + 1 * r.val = 256 * k.val + r.val; rw [o1, hk]; omega
    | ⟨2, _⟩ => show k0_off1 (grid0.coords t) (2 : Fin 3) + 1 * f.val = f.val; rw [o2]; omega)
  show (iblk m c 1 t : Vec Ideal S1x4096x128 .f32) _ = _
  rw [hr]
  exact blk_x m c t b hb (row k r) f

/-- What the host wrote before the launch: the weights with their format changed, the bias as one row. -/
theorem host_wm (c : Dev nD) : V m c main_v1 = (truncf (F := Ideal) (s := S128x128) .bf16 (argWm m c) bitsLt_bf16_f32 : S128x128.Idx → EReal) := by
  dsimp only [V, hostOps0]; after_results <;> rfl
theorem host_wu (c : Dev nD) : V m c main_v2 = (truncf (F := Ideal) (s := S128x128) .bf16 (argWu m c) bitsLt_bf16_f32 : S128x128.Idx → EReal) := by
  dsimp only [V, hostOps0]; after_results <;> rfl
theorem host_bias (c : Dev nD) : V m c main_v0 = (shapeCast S1x128 (argB m c) shapeCasts_S128_S1x128 : S1x128.Idx → EReal) := by
  dsimp only [V, hostOps0]; after_results <;> rfl

/-- The message weights' block at any point: `W_msg`. -/
theorem blk_wm (c : Dev nD) (t : Fin cfg0.N) (f u : Fin 128) :
    (iblk m c 2 t : Vec Ideal S128x128 .bf16) (ix2 f u) = argWm m c (ix2 f u) := by
  obtain ⟨-, -, -, -, -, -, e0, e1, -⟩ := idx_facts t
  unfold iblk
  rw [View.read_apply]
  show V m c main_v1 _ = _
  rw [host_wm]
  show argWm m c _ = _
  refine congrArg (argWm m c) (funext fun a => Fin.ext ?_)
  match a with
  | ⟨0, _⟩ => show win0_2.index t (0 : Fin 2) * 128 + 1 * f.val = f.val; rw [e0]; omega
  | ⟨1, _⟩ => show win0_2.index t (1 : Fin 2) * 128 + 1 * u.val = u.val; rw [e1]; omega

/-- The update weights' block at any point: `W_upd`. -/
theorem blk_wu (c : Dev nD) (t : Fin cfg0.N) (f u : Fin 128) :
    (iblk m c 3 t : Vec Ideal S128x128 .bf16) (ix2 f u) = argWu m c (ix2 f u) := by
  obtain ⟨-, -, -, -, -, -, -, -, e0, e1, -⟩ := idx_facts t
  unfold iblk
  rw [View.read_apply]
  show V m c main_v2 _ = _
  rw [host_wu]
  show argWu m c _ = _
  refine congrArg (argWu m c) (funext fun a => Fin.ext ?_)
  match a with
  | ⟨0, _⟩ => show win0_3.index t (0 : Fin 2) * 128 + 1 * f.val = f.val; rw [e0]; omega
  | ⟨1, _⟩ => show win0_3.index t (1 : Fin 2) * 128 + 1 * u.val = u.val; rw [e1]; omega

/-- The bias block at any point: the bias, as its one row. -/
theorem blk_bias (c : Dev nD) (t : Fin cfg0.N) (u : Fin 128) :
    (iblk m c 4 t : Vec Ideal S1x128 .f32) (ix2 (0 : Fin 1) u) = argB m c (ix1 u) := by
  obtain ⟨-, -, -, -, -, -, -, -, -, -, e0, e1, -⟩ := idx_facts t
  unfold iblk
  rw [View.read_apply]
  show V m c main_v0 _ = _
  rw [host_bias]
  have hi : (((cfg0.win 4).blk t).view.emb (ix2 (0 : Fin 1) u) : S1x128.Idx) = ix2 (0 : Fin 1) u := funext fun a => Fin.ext (by
    match a with
    | ⟨0, _⟩ => show win0_4.index t (0 : Fin 2) * 1 + 1 * 0 = 0; rw [e0]
    | ⟨1, _⟩ => show win0_4.index t (1 : Fin 2) * 128 + 1 * u.val = u.val; rw [e1]; omega)
  show shapeCast S1x128 (argB m c) shapeCasts_S128_S1x128 (((cfg0.win 4).blk t).view.emb (ix2 (0 : Fin 1) u)) = _
  rw [hi, shapeCast_a_1a_apply]

end Cert.KernelIdeal.Blocks

end
-- ==== Proof.Accum.lean ====
/-
  The accumulators, point by point.

  After the body has run at grid point `t` (batch `b = t / 16`, tile `t % 16`) the feature-sum accumulator holds, at
  (j, f), the running total of the gated sender features of batch `b` over tiles `0 … t % 16`, and the degree
  accumulator, at (0, j), the running total of the gates — by induction on the point. At a batch's first point the
  body zeroes the accumulators before adding the tile, so what was there before (the previous batch's totals)
  does not enter and the total restarts at the first tile's sum (`0 + s = s`); at every later point the tile's sum
  is added to what the point before left, which is the total so far of the same batch. At a batch's last
  point the totals are the full sums over all 4096 senders, and the epilogue, run on them, stores the layer.
-/
import proofs.«132118_j2903397893033_2_alg».proof.Proof.Gen.KernelIdeal.Frame
import proofs.«132118_j2903397893033_2_alg».proof.Proof.PiecesA
import proofs.«132118_j2903397893033_2_alg».proof.Proof.PiecesC
import proofs.«132118_j2903397893033_2_alg».proof.Proof.Payloads
import proofs.«132118_j2903397893033_2_alg».proof.Proof.Blocks

noncomputable section

namespace Cert.KernelIdeal.Accum

open scoped BigOperators
open Cert.KernelIdeal Cert.KernelIdeal.Gen Cert.KernelIdeal.Pieces Cert.KernelIdeal.Payload Cert.KernelIdeal.Blocks
open Idealize.ShloMosaic Idealize.ShloMosaic.TcCoe Idealize.SL.Sem Idealize.ShloMosaic.ValueIdx Cert.Mpnn

/-! ## One tile's step, over any blocks that hold the tile's rows -/

/-- The feature-sum store adds tile `k`'s gated sum of sender features of batch `b`. -/
theorem step_msum (X : SX.Idx → EReal) (A : SA.Idx → BitVec 32) (b : Fin 8) (k : ℕ) (hk : k < 16)
    (v3 : Vec Ideal S1x256x4096 .i32) (v13 : Vec Ideal S1x256x128 .f32)
    (h3 : ∀ (r : Fin 256) (j : Fin 4096), v3 (ix3 (0 : Fin 1) r j) = A (ix3 b (row ⟨k, hk⟩ r) j))
    (h13 : ∀ (r : Fin 256) (f : Fin 128), v13 (ix3 (0 : Fin 1) r f) = X (ix3 b (row ⟨k, hk⟩ r) f))
    (v16 : Vec Ideal S4096x128 .f32) (j : Fin 4096) (f : Fin 128) :
    k0_pay5 (F := Ideal) v3 v13 v16 (ix2 j f) = v16 (ix2 j f) + tileSum (msumTerm X A b j f) k := by
  rw [tile_msum, tileSum_of_lt _ _ hk]
  refine congrArg (v16 (ix2 j f) + ·) (Finset.sum_congr rfl fun r _ => ?_)
  rw [h3, h13]
  rfl

/-- The degree store adds tile `k`'s sum of gates of batch `b`. -/
theorem step_deg (A : SA.Idx → BitVec 32) (b : Fin 8) (k : ℕ) (hk : k < 16)
    (v3 : Vec Ideal S1x256x4096 .i32)
    (h3 : ∀ (r : Fin 256) (j : Fin 4096), v3 (ix3 (0 : Fin 1) r j) = A (ix3 b (row ⟨k, hk⟩ r) j))
    (v22 : Vec Ideal S1x4096 .f32) (z : Fin 1) (j : Fin 4096) :
    k0_pay6 (F := Ideal) v3 v22 (ix2 z j) = v22 (ix2 z j) + tileSum (degTerm A b j) k := by
  rw [tile_deg, tileSum_of_lt _ _ hk]
  refine congrArg (v22 (ix2 z j) + ·) (Finset.sum_congr rfl fun r _ => ?_)
  rw [h3]
  rfl

variable (m : (ℓ : Loc nD τ sig) → Buf (Elt Ideal) ℓ)

/-! ## The three kinds of point -/

/-- A batch's first point: the totals restart at the first tile's sums. -/
theorem at_first (c : Dev nD) (t : Fin cfg0.N) (h0 : t.val % 16 = 0) (h1 : ¬t.val % 16 = 15) (b : Fin 8) (hb : b.val = t.val / 16) :
    (∀ (j : Fin 4096) (f : Fin 128), (outsAt0 m c t.val t.isLt).2.1 (ix2 j f) = upTo (msumTerm (argX m c) (argA m c) b j f) (t.val % 16))
    ∧ (∀ j : Fin 4096, (outsAt0 m c t.val t.isLt).2.2 (ix2 (0 : Fin 1) j) = upTo (degTerm (argA m c) b j) (t.val % 16)) := by
  have hk : t.val % 16 < 16 := Nat.mod_lt _ (by decide)
  rw [outsAt0_A m c t h0 h1]
  refine ⟨fun j f => ?_, fun j => ?_⟩
  · dsimp only
    refine (congrFun (sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 j f)).trans ?_
    refine (step_msum (argX m c) (argA m c) b (t.val % 16) hk (iblk m c 0 t) (rows (grid0.coords t) (iblk m c 1 t))
      (fun r j' => blk_adj m c t b ⟨t.val % 16, hk⟩ hb rfl r j') (fun r f' => blk_rows m c t b ⟨t.val % 16, hk⟩ hb rfl r f') (k0_pay2 (F := Ideal)) j f).trans ?_
    rw [zeros_msum, zero_add, h0]
    exact (upTo_zero _).symm
  · dsimp only
    refine (congrFun (sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix2 (0 : Fin 1) j)).trans ?_
    refine (step_deg (argA m c) b (t.val % 16) hk (iblk m c 0 t)
      (fun r j' => blk_adj m c t b ⟨t.val % 16, hk⟩ hb rfl r j') (k0_pay3 (F := Ideal)) (0 : Fin 1) j).trans ?_
    rw [zeros_deg, zero_add, h0]
    exact (upTo_zero _).symm

/-- A middle point: this tile's sums are added to what the point before left. -/
theorem at_middle (c : Dev nD) (t : Fin cfg0.N) (h0 : ¬t.val % 16 = 0) (h1 : ¬t.val % 16 = 15) (b : Fin 8) (hb : b.val = t.val / 16)
    (p0 : ∀ (j : Fin 4096) (f : Fin 128), (outsAt0 m c (t.val - 1) (Nat.lt_of_le_of_lt (Nat.sub_le _ _) t.isLt)).2.1 (ix2 j f) = upTo (msumTerm (argX m c) (argA m c) b j f) ((t.val - 1) % 16))
    (p1 : ∀ j : Fin 4096, (outsAt0 m c (t.val - 1) (Nat.lt_of_le_of_lt (Nat.sub_le _ _) t.isLt)).2.2 (ix2 (0 : Fin 1) j) = upTo (degTerm (argA m c) b j) ((t.val - 1) % 16)) :
    (∀ (j : Fin 4096) (f : Fin 128), (outsAt0 m c t.val t.isLt).2.1 (ix2 j f) = upTo (msumTerm (argX m c) (argA m c) b j f) (t.val % 16))
    ∧ (∀ j : Fin 4096, (outsAt0 m c t.val t.isLt).2.2 (ix2 (0 : Fin 1) j) = upTo (degTerm (argA m c) b j) (t.val % 16)) := by
  have hk : t.val % 16 < 16 := Nat.mod_lt _ (by decide)
  have hs : t.val % 16 = (t.val - 1) % 16 + 1 := by omega
  rw [outsAt0_B m c t h0 h1]
  refine ⟨fun j f => ?_, fun j => ?_⟩
  · dsimp only
    refine (congrFun (sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 j f)).trans ?_
    refine (step_msum (argX m c) (argA m c) b (t.val % 16) hk (iblk m c 0 t) (rows (grid0.coords t) (iblk m c 1 t))
      (fun r j' => blk_adj m c t b ⟨t.val % 16, hk⟩ hb rfl r j') (fun r f' => blk_rows m c t b ⟨t.val % 16, hk⟩ hb rfl r f') (outsAt0 m c (t.val - 1) (Nat.lt_of_le_of_lt (Nat.sub_le _ _) t.isLt)).2.1 j f).trans ?_
    rw [p0 j f, hs]
    exact (upTo_succ _ _).symm
  · dsimp only
    refine (congrFun (sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 (0 : Fin 1) j)).trans ?_
    refine (step_deg (argA m c) b (t.val % 16) hk (iblk m c 0 t)
      (fun r j' => blk_adj m c t b ⟨t.val % 16, hk⟩ hb rfl r j') (outsAt0 m c (t.val - 1) (Nat.lt_of_le_of_lt (Nat.sub_le _ _) t.isLt)).2.2 (0 : Fin 1) j).trans ?_
    rw [p1 j, hs]
    exact (upTo_succ _ _).symm

/-- A batch's last point: the totals are completed, and the output block holds the layer of the batch. -/
theorem at_last (c : Dev nD) (t : Fin cfg0.N) (h0 : ¬t.val % 16 = 0) (h1 : t.val % 16 = 15) (b : Fin 8) (hb : b.val = t.val / 16)
    (p0 : ∀ (j : Fin 4096) (f : Fin 128), (outsAt0 m c (t.val - 1) (Nat.lt_of_le_of_lt (Nat.sub_le _ _) t.isLt)).2.1 (ix2 j f) = upTo (msumTerm (argX m c) (argA m c) b j f) ((t.val - 1) % 16))
    (p1 : ∀ j : Fin 4096, (outsAt0 m c (t.val - 1) (Nat.lt_of_le_of_lt (Nat.sub_le _ _) t.isLt)).2.2 (ix2 (0 : Fin 1) j) = upTo (degTerm (argA m c) b j) ((t.val - 1) % 16)) :
    ((∀ (j : Fin 4096) (f : Fin 128), (outsAt0 m c t.val t.isLt).2.1 (ix2 j f) = upTo (msumTerm (argX m c) (argA m c) b j f) (t.val % 16))
    ∧ (∀ j : Fin 4096, (outsAt0 m c t.val t.isLt).2.2 (ix2 (0 : Fin 1) j) = upTo (degTerm (argA m c) b j) (t.val % 16)))
    ∧ ∀ (j : Fin 4096) (u : Fin 128), (outsAt0 m c t.val t.isLt).1 (ix3 (0 : Fin 1) j u)
        = layerAt (argX m c) (argA m c) (argWm m c) (argWu m c) (argB m c) b j u := by
  have hk : t.val % 16 < 16 := Nat.mod_lt _ (by decide)
  have hs : t.val % 16 = (t.val - 1) % 16 + 1 := by omega
  have q0 : ∀ (j : Fin 4096) (f : Fin 128),
      k0_pay5 (F := Ideal) (iblk m c 0 t) (rows (grid0.coords t) (iblk m c 1 t)) (outsAt0 m c (t.val - 1) (Nat.lt_of_le_of_lt (Nat.sub_le _ _) t.isLt)).2.1 (ix2 j f)
        = upTo (msumTerm (argX m c) (argA m c) b j f) (t.val % 16) := fun j f => by
    refine (step_msum (argX m c) (argA m c) b (t.val % 16) hk (iblk m c 0 t) (rows (grid0.coords t) (iblk m c 1 t))
      (fun r j' => blk_adj m c t b ⟨t.val % 16, hk⟩ hb rfl r j') (fun r f' => blk_rows m c t b ⟨t.val % 16, hk⟩ hb rfl r f') (outsAt0 m c (t.val - 1) (Nat.lt_of_le_of_lt (Nat.sub_le _ _) t.isLt)).2.1 j f).trans ?_
    rw [p0 j f, hs]
    exact (upTo_succ _ _).symm
  have q1 : ∀ j : Fin 4096,
      k0_pay6 (F := Ideal) (iblk m c 0 t) (outsAt0 m c (t.val - 1) (Nat.lt_of_le_of_lt (Nat.sub_le _ _) t.isLt)).2.2 (ix2 (0 : Fin 1) j)
        = upTo (degTerm (argA m c) b j) (t.val % 16) := fun j => by
    refine (step_deg (argA m c) b (t.val % 16) hk (iblk m c 0 t)
      (fun r j' => blk_adj m c t b ⟨t.val % 16, hk⟩ hb rfl r j') (outsAt0 m c (t.val - 1) (Nat.lt_of_le_of_lt (Nat.sub_le _ _) t.isLt)).2.2 (0 : Fin 1) j).trans ?_
    rw [p1 j, hs]
    exact (upTo_succ _ _).symm
  rw [outsAt0_C m c t h0 h1]
  refine ⟨⟨fun j f => ?_, fun j => ?_⟩, fun j u => ?_⟩
  · dsimp only
    exact (congrFun (sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 j f)).trans (q0 j f)
  · dsimp only
    exact (congrFun (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 (0 : Fin 1) j)).trans (q1 j)
  · dsimp only
    refine (congrFun (out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) j u)).trans ?_
    refine (epilogue (k0_pay6 (F := Ideal) (iblk m c 0 t) (outsAt0 m c (t.val - 1) (Nat.lt_of_le_of_lt (Nat.sub_le _ _) t.isLt)).2.2)
      (k0_pay5 (F := Ideal) (iblk m c 0 t) (rows (grid0.coords t) (iblk m c 1 t)) (outsAt0 m c (t.val - 1) (Nat.lt_of_le_of_lt (Nat.sub_le _ _) t.isLt)).2.1)
      (iblk m c 1 t) (iblk m c 2 t) (iblk m c 3 t) (iblk m c 4 t) (0 : Fin 1) j u).trans ?_
    unfold layerAt update
    rw [q1 j, h1, upTo_last, blk_bias m c t u]
    refine congrArg (max · zero) (congrArg (· + argB m c (ix1 u)) ?_)
    refine congrArg₂ (· + ·) (Finset.sum_congr rfl fun f _ => ?_) (Finset.sum_congr rfl fun f _ => ?_)
    · rw [blk_x m c t b hb j f, blk_wu m c t f u]
    · rw [q0 j f, h1, upTo_last, blk_wm m c t f u]
      rfl

/-! ## Every point -/

/-- After point `n` the accumulators hold the running totals of batch `n / 16` up to tile `n % 16`. -/
theorem totals (c : Dev nD) : ∀ (n : ℕ) (h : n < cfg0.N) (b : Fin 8) (hb : b.val = n / 16),
    (∀ (j : Fin 4096) (f : Fin 128), (outsAt0 m c n h).2.1 (ix2 j f) = upTo (msumTerm (argX m c) (argA m c) b j f) (n % 16))
    ∧ (∀ j : Fin 4096, (outsAt0 m c n h).2.2 (ix2 (0 : Fin 1) j) = upTo (degTerm (argA m c) b j) (n % 16))
  | 0, h, b, hb => at_first m c ⟨0, h⟩ (Nat.zero_mod 16) (by dsimp only; omega) b hb
  | n + 1, h, b, hb => by
    have hN : cfg0.N = 128 := N_0
    by_cases h0 : (n + 1) % 16 = 0
    · exact at_first m c ⟨n + 1, h⟩ h0 (by dsimp only; omega) b hb
    · have ih := totals c n (Nat.lt_of_succ_lt h) b (by omega)
      by_cases h1 : (n + 1) % 16 = 15
      · exact (at_last m c ⟨n + 1, h⟩ h0 h1 b hb ih.1 ih.2).1
      · exact at_middle m c ⟨n + 1, h⟩ h0 h1 b hb ih.1 ih.2

/-- At a batch's last point the output block holds the layer of the batch. -/
theorem block_eq_layer (c : Dev nD) (t : Fin cfg0.N) (h1 : t.val % 16 = 15) (b : Fin 8) (hb : b.val = t.val / 16)
    (j : Fin 4096) (u : Fin 128) :
    (outsAt0 m c t.val t.isLt).1 (ix3 (0 : Fin 1) j u)
      = layerAt (argX m c) (argA m c) (argWm m c) (argWu m c) (argB m c) b j u := by
  have hN : cfg0.N = 128 := N_0
  have hlt := t.isLt
  have h0 : ¬t.val % 16 = 0 := by omega
  have ih := totals m c (t.val - 1) (Nat.lt_of_le_of_lt (Nat.sub_le _ _) t.isLt) b (by omega)
  exact (at_last m c t h0 h1 b hb ih.1 ih.2).2 j u

end Cert.KernelIdeal.Accum

end
-- ==== Proof.Final.lean ====
/-
  From the output blocks to the result array.

  The output window's block is batch `t / 16`'s whole [4096, 128] slab, and the pipeline writes it back only at a
  batch's last point (the points ≡ 15 mod 16), where the body has just stored the layer of that batch into it.
  So every write-back stores the batch's slab of ONE whole-array function, the layer of the argument arrays; the
  eight slabs cover the result array (index (b, j, u) lies in the slab written at point `16·b + 15`); hence the
  result array ends holding the layer.
-/
import proofs.«132118_j2903397893033_2_alg».proof.Proof.Gen.KernelIdeal.Value
import proofs.«132118_j2903397893033_2_alg».proof.Proof.Accum

noncomputable section

namespace Cert.KernelIdeal.Final

open Cert.KernelIdeal Cert.KernelIdeal.Gen Cert.KernelIdeal.Blocks Cert.KernelIdeal.Accum
open Idealize.ShloMosaic Idealize.ShloMosaic.TcCoe Idealize.SL.Sem Idealize.ShloMosaic.ValueIdx Cert.Mpnn
open Idealize.ShloMosaic.Pipeline (Dat)

variable (m : (ℓ : Loc nD τ sig) → Buf (Elt Ideal) ℓ) (ρ : Dev nD → PrngReg)

/-- What the result array ends holding: the layer of the argument arrays as launched. -/
abbrev result (c : Dev nD) : S8x4096x128.Idx → EReal :=
  layer (argX m c) (argA m c) (argWm m c) (argWu m c) (argB m c)

/-- What a write-back stores is its batch's slab of the layer. -/
theorem flushed_eq (c : Dev nD) (t : Fin cfg0.N) (hf : (cfg0.win 5).flush t = true) :
    (dats m 0 c).flushed 5 t = ((cfg0.win 5).blk t).view.read (Elt Ideal) (result m c) := by
  have h1 : t.val % 16 = 15 := (flush0_5 t).mp hf
  have hN : cfg0.N = 128 := N_0
  have hlt := t.isLt
  obtain ⟨-, -, -, -, -, -, -, -, -, -, -, -, e0, e1, e2, -⟩ := idx_facts t
  rw [Value.flushed5]
  refine funext fun (y : S1x4096x128.Idx) => ?_
  obtain ⟨z, j, u, rfl⟩ : ∃ (z : Fin 1) (j : Fin 4096) (u : Fin 128), y = ix3 z j u := ⟨y 0, y 1, y 2, eq_ix3 y⟩
  obtain rfl : z = 0 := Subsingleton.elim _ _
  rw [View.read_apply]
  show (outsAt0 m c t.val t.isLt).1 (ix3 (0 : Fin 1) j u) = result m c (((cfg0.win 5).blk t).view.emb (ix3 (0 : Fin 1) j u))
  have hi : (((cfg0.win 5).blk t).view.emb (ix3 (0 : Fin 1) j u) : S8x4096x128.Idx)
      = ix3 (⟨t.val / 16, by omega⟩ : Fin 8) j u := funext fun a => Fin.ext (by
    match a with
    | ⟨0, _⟩ => show win0_5.index t (0 : Fin 3) * 1 + 1 * 0 = t.val / 16; rw [e0]; omega
    | ⟨1, _⟩ => show win0_5.index t (1 : Fin 3) * 4096 + 1 * j.val = j.val; rw [e1]; omega
    | ⟨2, _⟩ => show win0_5.index t (2 : Fin 3) * 128 + 1 * u.val = u.val; rw [e2]; omega)
  rw [hi]
  exact block_eq_layer m c t h1 ⟨t.val / 16, by omega⟩ rfl j u

/-- An index of the result array is in point `t`'s slab iff each coordinate is in the slab's range on its axis. -/
theorem mem_slab (t : Fin cfg0.N) (i : S8x4096x128.Idx) :
    i ∈ ((cfg0.win 5).blk t).view.set ↔ ∀ a : Fin 3, win0_5.index t a * S1x4096x128.size a ≤ (i a).val
      ∧ (i a).val < win0_5.index t a * S1x4096x128.size a + S1x4096x128.size a := by
  show i ∈ ((View.whole main_v3).slice (win0_5.rect t)).set ↔ _
  rw [View.set_slice_whole, Rect.mem_set_unit]
  exact Iff.rfl

/-- Every index is in the slab written at its batch's last point. -/
theorem cover (i : S8x4096x128.Idx) :
    ∃ t : Fin cfg0.N, (cfg0.win 5).flush t = true ∧ i ∈ ((cfg0.win 5).blk t).view.set := by
  have hN : cfg0.N = 128 := N_0
  have hb : (i 0).val < 8 := (i 0).isLt
  have hj : (i 1).val < 4096 := (i 1).isLt
  have hu : (i 2).val < 128 := (i 2).isLt
  have ht : 16 * (i 0).val + 15 < cfg0.N := by omega
  obtain ⟨-, -, -, -, -, -, -, -, -, -, -, -, e0, e1, e2, -⟩ := idx_facts ⟨16 * (i 0).val + 15, ht⟩
  refine ⟨⟨16 * (i 0).val + 15, ht⟩, (flush0_5 _).mpr (by dsimp only; omega), ?_⟩
  rw [mem_slab]
  intro a
  match a with
  | ⟨0, _⟩ =>
    show win0_5.index ⟨16 * (i 0).val + 15, ht⟩ (0 : Fin 3) * 1 ≤ (i 0).val
      ∧ (i 0).val < win0_5.index ⟨16 * (i 0).val + 15, ht⟩ (0 : Fin 3) * 1 + 1
    rw [e0]; dsimp only; omega
  | ⟨1, _⟩ =>
    show win0_5.index ⟨16 * (i 0).val + 15, ht⟩ (1 : Fin 3) * 4096 ≤ (i 1).val
      ∧ (i 1).val < win0_5.index ⟨16 * (i 0).val + 15, ht⟩ (1 : Fin 3) * 4096 + 4096
    rw [e1]; omega
  | ⟨2, _⟩ =>
    show win0_5.index ⟨16 * (i 0).val + 15, ht⟩ (2 : Fin 3) * 128 ≤ (i 2).val
      ∧ (i 2).val < win0_5.index ⟨16 * (i 0).val + 15, ht⟩ (2 : Fin 3) * 128 + 128
    rw [e2]; omega

/-- The result array after the run is the layer. -/
theorem final (c : Dev nD) : (dats m 0 c).arrAt 5 cfg0.N = result m c :=
  (dats m 0 c).arrAt_eq_of_cover 5 (result m c) (flushed_eq m c) (cover)

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.lean ====
/-
  The certificate of the message-passing layer: a kernel that, per batch, accumulates the gated sums of sender
  features and the in-degrees over 16 tiles of 256 senders and then applies the dense update, against the
  reference that computes the same layer in one pass.

  Both idealized programs end with the result array at `Cert.Mpnn.layer` of the argument arrays:

    out(b, j, u) = max((∑_f x(b,j,f)·W_upd(f,u) + ∑_f (msum(b,j,f) / max(deg(b,j), 1))·W_msg(f,u)) + bias(u), 0),
    msum(b,j,f) = ∑ᵢ edge(b,i,j)·x(b,i,f),   deg(b,j) = ∑ᵢ edge(b,i,j),   edge = 1 where the adjacency word ≠ 0.

  The reference is that function operation by operation. The kernel differs only in summing over the senders tile
  by tile, which is the same sum because addition on the extended reals is associative and commutative — no
  finiteness of the inputs is used, and a change of float format is the identity there. The frames are the
  generated ones; the kernel's idealization rewrote nothing, so its `preserves` claim is `True`.
-/
import proofs.«132118_j2903397893033_2_alg».proof.Defs
import proofs.«132118_j2903397893033_2_alg».proof.Proof.Gen.Kernel
import proofs.«132118_j2903397893033_2_alg».proof.Proof.Gen.Kernel.Frame
import proofs.«132118_j2903397893033_2_alg».proof.Proof.Gen.KernelIdeal
import proofs.«132118_j2903397893033_2_alg».proof.Proof.Gen.KernelIdeal.Frame
import proofs.«132118_j2903397893033_2_alg».proof.Proof.Gen.ReferenceIdeal
import proofs.«132118_j2903397893033_2_alg».proof.Proof.Gen.Pre_finite_inputs
import proofs.«132118_j2903397893033_2_alg».proof.Proof.Legs
import proofs.«132118_j2903397893033_2_alg».proof.Proof.RefIsSpec
import proofs.«132118_j2903397893033_2_alg».proof.Proof.Final
import Idealize.ShloMosaic.Adequacy
import Idealize.ShloMosaic.Init

noncomputable section

namespace Cert.Proof

open Idealize.ShloMosaic Idealize.ShloMosaic.TcCoe Idealize.SL.Sem

/-- The three programs run and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both idealized programs end with the result array at the layer of the arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq_layer,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
